-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x2048 : Shape := ⟨3, ![64, 512, 2048]⟩
abbrev S32x2048 : Shape := ⟨2, ![32, 2048]⟩
abbrev S_ : Shape := ⟨0, ![]⟩

class Facts : Prop where
  bcast_S_S64x512x2048 : S_.BroadcastsInDim S64x512x2048 (![] : Fin 0 → Fin S64x512x2048.rank)
  reducesTo_S64x512x2048_S_d0_1_2 : S64x512x2048.ReducesTo [0, 1, 2] S_
  h_S_ : 0 < S_.numel
  bcast_S_S32x2048 : S_.BroadcastsInDim S32x2048 (![] : Fin 0 → Fin S32x2048.rank)
  reducesTo_S32x2048_S_d0_1 : S32x2048.ReducesTo [0, 1] S_

variable [Facts]

def fn {F : FTy → Type} [FloatOps F] (main_arg0 : FVec F S64x512x2048 .f32) (main_arg1 : FVec F S32x2048 .f32) (main_arg2 : FVec F S32x2048 .f32) : IVec S_ 1 :=
  let main_v0 : FVec F S64x512x2048 .f32 := Host.absf main_arg0
  let main_cst : FVec F S_ .f32 := constant S_ .f32 0x7F800000#32
  let main_v1 : FVec F S64x512x2048 .f32 := broadcastInDim S64x512x2048 ![] bcast_S_S64x512x2048 main_cst
  let main_v2 : IVec S64x512x2048 1 := cmpf .olt main_v0 main_v1
  let main_c : IVec S_ 1 := constantI S_ 1 1#1
  let main_v3 : IVec S_ 1 := (fun x v => Host.reduce IntOp.andi x v reducesTo_S64x512x2048_S_d0_1_2 h_S_) main_v2 main_c
  let main_v4 : FVec F S32x2048 .f32 := Host.absf main_arg1
  let main_cst_0 : FVec F S_ .f32 := constant S_ .f32 0x7F800000#32
  let main_v5 : FVec F S32x2048 .f32 := broadcastInDim S32x2048 ![] bcast_S_S32x2048 main_cst_0
  let main_v6 : IVec S32x2048 1 := cmpf .olt main_v4 main_v5
  let main_c_1 : IVec S_ 1 := constantI S_ 1 1#1
  let main_v7 : IVec S_ 1 := (fun x v => Host.reduce IntOp.andi x v reducesTo_S32x2048_S_d0_1 h_S_) main_v6 main_c_1
  let main_v8 : IVec S_ 1 := andi main_v3 main_v7
  let main_v9 : FVec F S32x2048 .f32 := Host.absf main_arg2
  let main_cst_2 : FVec F S_ .f32 := constant S_ .f32 0x7F800000#32
  let main_v10 : FVec F S32x2048 .f32 := broadcastInDim S32x2048 ![] bcast_S_S32x2048 main_cst_2
  let main_v11 : IVec S32x2048 1 := cmpf .olt main_v9 main_v10
  let main_c_3 : IVec S_ 1 := constantI S_ 1 1#1
  let main_v12 : IVec S_ 1 := (fun x v => Host.reduce IntOp.andi x v reducesTo_S32x2048_S_d0_1 h_S_) main_v11 main_c_3
  let main_v13 : IVec S_ 1 := andi main_v8 main_v12
  main_v13
-- ==== Kernel.lean ====
abbrev S64x512x2048 : Shape := ⟨3, ![64, 512, 2048]⟩
abbrev S32x2048 : Shape := ⟨2, ![32, 2048]⟩
abbrev S64x32x2048 : Shape := ⟨3, ![64, 32, 2048]⟩
abbrev S1x512x2048 : Shape := ⟨3, ![1, 512, 2048]⟩
abbrev S1x32x2048 : Shape := ⟨3, ![1, 32, 2048]⟩
abbrev S512x2048 : Shape := ⟨2, ![512, 2048]⟩
abbrev S512 : Shape := ⟨1, ![512]⟩
abbrev S512x1 : Shape := ⟨2, ![512, 1]⟩
abbrev S512x32 : Shape := ⟨2, ![512, 32]⟩
abbrev S32 : Shape := ⟨1, ![32]⟩
abbrev S1x32 : Shape := ⟨2, ![1, 32]⟩
abbrev S32x1 : Shape := ⟨2, ![32, 1]⟩
abbrev S1 : Shape := ⟨1, ![1]⟩
abbrev S1x1 : Shape := ⟨2, ![1, 1]⟩
abbrev S64x65536 : Shape := ⟨2, ![64, 65536]⟩

abbrev nBuf : Space → Nat
  | .hbm => 5
  | .vmem => 6
  | .smem => 0
  | _ => 0

abbrev bufTy : (tb : Table) → Fin (tcTables nBuf tb) → BufTy
  | .hbm, ⟨0, _⟩ => ⟨S64x512x2048, .f32⟩
  | .hbm, ⟨1, _⟩ => ⟨S32x2048, .f32⟩
  | .hbm, ⟨2, _⟩ => ⟨S32x2048, .f32⟩
  | .hbm, ⟨3, _⟩ => ⟨S64x32x2048, .f32⟩
  | .hbm, ⟨4, _⟩ => ⟨S64x65536, .f32⟩
  | .local _ .vmem, ⟨0, _⟩ => ⟨S1x512x2048, .f32⟩
  | .local _ .vmem, ⟨1, _⟩ => ⟨S1x512x2048, .f32⟩
  | .local _ .vmem, ⟨2, _⟩ => ⟨S32x2048, .f32⟩
  | .local _ .vmem, ⟨3, _⟩ => ⟨S32x2048, .f32⟩
  | .local _ .vmem, ⟨4, _⟩ => ⟨S1x32x2048, .f32⟩
  | .local _ .vmem, ⟨5, _⟩ => ⟨S1x32x2048, .f32⟩
  | _, _ => ⟨S64x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S32x2048_S32x2048_0_0 : ∀ a, (![0, 0] : Fin 2 → Nat) a + S32x2048.size a ≤ S32x2048.size a
  h_S32x2048 : 0 < S32x2048.numel
  reduces_S512x2048_S512 : S512x2048.Reduces [1] S512
  shapeCasts_S512_S512x1 : S512.ShapeCasts S512x1
  broadcasts_S512x1_S512x2048 : S512x1.Broadcasts S512x2048
  bitsLt_bf16_f32 : FTy.bits .bf16 < FTy.bits .f32
  reduces_S512x32_S512 : S512x32.Reduces [1] S512
  broadcasts_S512x1_S512x32 : S512x1.Broadcasts S512x32
  reduces_S512x32_S32 : S512x32.Reduces [0] S32
  shapeCasts_S32_S1x32 : S32.ShapeCasts S1x32
  transposes_S1x32_p1_0_S32x1 : S1x32.Transposes [1, 0] S32x1
  broadcasts_S32x1_S32x2048 : S32x1.Broadcasts S32x2048
  reduces_S32x2048_S32 : S32x2048.Reduces [1] S32
  shapeCasts_S32_S32x1 : S32.ShapeCasts S32x1
  reduces_S32x1_S1 : S32x1.Reduces [0] S1
  shapeCasts_S1_S1x1 : S1.ShapeCasts S1x1
  broadcasts_S1x1_S32x2048 : S1x1.Broadcasts S32x2048
  inb_S1x32x2048_S1x32x2048_0_0_0 : ∀ a, (![0, 0, 0] : Fin 3 → Nat) a + S1x32x2048.size a ≤ S1x32x2048.size a
  h_S1x32x2048 : 0 < S1x32x2048.numel
  shapeCasts_S1x32x2048_S32x2048 : S1x32x2048.ShapeCasts S32x2048
  shapeCasts_S32x2048_S1x32x2048 : S32x2048.ShapeCasts S1x32x2048
  shapeCasts_S64x32x2048_S64x65536 : S64x32x2048.ShapeCasts S64x65536
  dot_S512x2048_S32x2048_S512x32_1_1_0_0_n_n_wf : DotDims.WF S512x2048 S32x2048 S512x32 [1] [1] [0] [0] [] []
  dot_S512x32_S512x2048_S32x2048_0_0_1_1_n_n_wf : DotDims.WF S512x32 S512x2048 S32x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S64x512x2048.size a
  hwx0_0 : ∀ i : grid0.Coords, EltTy.bits .f32 = 32 ∨ (Rect.block (s := S64x512x2048) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x2048.size a ≤ S32x2048.size a
  hwx0_1 : ∀ i : grid0.Coords, EltTy.bits .f32 = 32 ∨ (Rect.block (s := S32x2048) S32x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x2048.size a ≤ S32x2048.size a
  hwx0_2 : ∀ i : grid0.Coords, EltTy.bits .f32 = 32 ∨ (Rect.block (s := S32x2048) S32x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x2048.size a ≤ S64x32x2048.size a
  hwx0_3 : ∀ i : grid0.Coords, EltTy.bits .f32 = 32 ∨ (Rect.block (s := S64x32x2048) S1x32x2048.size (cc0_transform_3 i) (hinb0_3 i)).WholeWords (EltTy.packing .f32)

variable [Facts₀]

def dot_S512x2048_S32x2048_S512x32_1_1_0_0_n_n : DotDims S512x2048 S32x2048 S512x32 where
  lhsContracting := [1]
  rhsContracting := [1]
  lhsNonContracting := [0]
  rhsNonContracting := [0]
  lhsBatch := []
  rhsBatch := []
  wf := dot_S512x2048_S32x2048_S512x32_1_1_0_0_n_n_wf
def dot_S512x32_S512x2048_S32x2048_0_0_1_1_n_n : DotDims S512x32 S512x2048 S32x2048 where
  lhsContracting := [0]
  rhsContracting := [0]
  lhsNonContracting := [1]
  rhsNonContracting := [1]
  lhsBatch := []
  rhsBatch := []
  wf := dot_S512x32_S512x2048_S32x2048_0_0_1_1_n_n_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x2048 : Shape := ⟨3, ![64, 512, 2048]⟩
abbrev S32x2048 : Shape := ⟨2, ![32, 2048]⟩
abbrev S_ : Shape := ⟨0, ![]⟩
abbrev S64x512 : Shape := ⟨2, ![64, 512]⟩
abbrev S64x512x1 : Shape := ⟨3, ![64, 512, 1]⟩
abbrev S64x512x32 : Shape := ⟨3, ![64, 512, 32]⟩
abbrev S64x32x2048 : Shape := ⟨3, ![64, 32, 2048]⟩
abbrev S64x32 : Shape := ⟨2, ![64, 32]⟩
abbrev S64x32x1 : Shape := ⟨3, ![64, 32, 1]⟩
abbrev S1x32x2048 : Shape := ⟨3, ![1, 32, 2048]⟩
abbrev S64x65536 : Shape := ⟨2, ![64, 65536]⟩
abbrev S64 : Shape := ⟨1, ![64]⟩
abbrev S64x1 : Shape := ⟨2, ![64, 1]⟩

abbrev nBuf : Space → Nat
  | .hbm => 58
  | .vmem => 0
  | .smem => 0
  | _ => 0

abbrev bufTy : (tb : Table) → Fin (tcTables nBuf tb) → BufTy
  | .hbm, ⟨0, _⟩ => ⟨S64x512x2048, .f32⟩
  | .hbm, ⟨1, _⟩ => ⟨S32x2048, .f32⟩
  | .hbm, ⟨2, _⟩ => ⟨S32x2048, .f32⟩
  | .hbm, ⟨3, _⟩ => ⟨S64x512x2048, .f32⟩
  | .hbm, ⟨4, _⟩ => ⟨S_, .f32⟩
  | .hbm, ⟨5, _⟩ => ⟨S64x512, .f32⟩
  | .hbm, ⟨6, _⟩ => ⟨S64x512x1, .f32⟩
  | .hbm, ⟨7, _⟩ => ⟨S64x512x1, .f32⟩
  | .hbm, ⟨8, _⟩ => ⟨S_, .f32⟩
  | .hbm, ⟨9, _⟩ => ⟨S64x512x1, .f32⟩
  | .hbm, ⟨10, _⟩ => ⟨S64x512x1, .f32⟩
  | .hbm, ⟨11, _⟩ => ⟨S64x512x2048, .f32⟩
  | .hbm, ⟨12, _⟩ => ⟨S64x512x2048, .f32⟩
  | .hbm, ⟨13, _⟩ => ⟨S64x512x32, .f32⟩
  | .hbm, ⟨14, _⟩ => ⟨S_, .f32⟩
  | .hbm, ⟨15, _⟩ => ⟨S64x512, .f32⟩
  | .hbm, ⟨16, _⟩ => ⟨S_, .f32⟩
  | .hbm, ⟨17, _⟩ => ⟨S64x512, .f32⟩
  | .hbm, ⟨18, _⟩ => ⟨S64x512, .f32⟩
  | .hbm, ⟨19, _⟩ => ⟨S64x512x1, .f32⟩
  | .hbm, ⟨20, _⟩ => ⟨S64x512x32, .f32⟩
  | .hbm, ⟨21, _⟩ => ⟨S64x512x32, .f32⟩
  | .hbm, ⟨22, _⟩ => ⟨S64x512x32, .f32⟩
  | .hbm, ⟨23, _⟩ => ⟨S_, .f32⟩
  | .hbm, ⟨24, _⟩ => ⟨S64x512, .f32⟩
  | .hbm, ⟨25, _⟩ => ⟨S64x512x1, .f32⟩
  | .hbm, ⟨26, _⟩ => ⟨S64x512x32, .f32⟩
  | .hbm, ⟨27, _⟩ => ⟨S64x512x32, .f32⟩
  | .hbm, ⟨28, _⟩ => ⟨S64x32x2048, .f32⟩
  | .hbm, ⟨29, _⟩ => ⟨S_, .f32⟩
  | .hbm, ⟨30, _⟩ => ⟨S64x32, .f32⟩
  | .hbm, ⟨31, _⟩ => ⟨S64x32x1, .f32⟩
  | .hbm, ⟨32, _⟩ => ⟨S1x32x2048, .f32⟩
  | .hbm, ⟨33, _⟩ => ⟨S64x32x2048, .f32⟩
  | .hbm, ⟨34, _⟩ => ⟨S64x32x2048, .f32⟩
  | .hbm, ⟨35, _⟩ => ⟨S64x32x2048, .f32⟩
  | .hbm, ⟨36, _⟩ => ⟨S64x32x2048, .f32⟩
  | .hbm, ⟨37, _⟩ => ⟨S64x32x2048, .f32⟩
  | .hbm, ⟨38, _⟩ => ⟨S_, .f32⟩
  | .hbm, ⟨39, _⟩ => ⟨S64x32, .f32⟩
  | .hbm, ⟨40, _⟩ => ⟨S64x32x1, .f32⟩
  | .hbm, ⟨41, _⟩ => ⟨S64x32x1, .f32⟩
  | .hbm, ⟨42, _⟩ => ⟨S_, .f32⟩
  | .hbm, ⟨43, _⟩ => ⟨S64x32x1, .f32⟩
  | .hbm, ⟨44, _⟩ => ⟨S64x32x1, .f32⟩
  | .hbm, ⟨45, _⟩ => ⟨S64x32x2048, .f32⟩
  | .hbm, ⟨46, _⟩ => ⟨S64x32x2048, .f32⟩
  | .hbm, ⟨47, _⟩ => ⟨S64x65536, .f32⟩
  | .hbm, ⟨48, _⟩ => ⟨S64x65536, .f32⟩
  | .hbm, ⟨49, _⟩ => ⟨S_, .f32⟩
  | .hbm, ⟨50, _⟩ => ⟨S64, .f32⟩
  | .hbm, ⟨51, _⟩ => ⟨S64x1, .f32⟩
  | .hbm, ⟨52, _⟩ => ⟨S64x1, .f32⟩
  | .hbm, ⟨53, _⟩ => ⟨S_, .f32⟩
  | .hbm, ⟨54, _⟩ => ⟨S64x1, .f32⟩
  | .hbm, ⟨55, _⟩ => ⟨S64x1, .f32⟩
  | .hbm, ⟨56, _⟩ => ⟨S64x65536, .f32⟩
  | .hbm, ⟨57, _⟩ => ⟨S64x65536, .f32⟩
  | _, _ => ⟨S64x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call1_v0 : Ref sig .tc := ⟨.hbm, 37, rfl⟩
abbrev main_call1_cst : Ref sig .tc := ⟨.hbm, 38, rfl⟩
abbrev main_call1_v1 : Ref sig .tc := ⟨.hbm, 39, rfl⟩
abbrev main_call1_v2 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call2_v0 : Ref sig .tc := ⟨.hbm, 48, rfl⟩
abbrev main_call2_cst : Ref sig .tc := ⟨.hbm, 49, rfl⟩
abbrev main_call2_v1 : Ref sig .tc := ⟨.hbm, 50, rfl⟩
abbrev main_call2_v2 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]

class Facts₀ : Prop where
  reducesTo_S64x512x2048_S64x512_d2 : S64x512x2048.ReducesTo [2] S64x512
  h_S_ : 0 < S_.numel
  bcast_S64x512_S64x512x1_0_1 : S64x512.BroadcastsInDim S64x512x1 (![0, 1] : Fin 2 → Fin S64x512x1.rank)
  bcast_S_S64x512x1 : S_.BroadcastsInDim S64x512x1 (![] : Fin 0 → Fin S64x512x1.rank)
  bcast_S64x512x1_S64x512x2048_0_1_2 : S64x512x1.BroadcastsInDim S64x512x2048 (![0, 1, 2] : Fin 3 → Fin S64x512x2048.rank)
  reducesTo_S64x512x32_S64x512_d2 : S64x512x32.ReducesTo [2] S64x512
  bcast_S_S64x512 : S_.BroadcastsInDim S64x512 (![] : Fin 0 → Fin S64x512.rank)
  bcast_S64x512x1_S64x512x32_0_1_2 : S64x512x1.BroadcastsInDim S64x512x32 (![0, 1, 2] : Fin 3 → Fin S64x512x32.rank)
  reducesTo_S64x512x32_S64x32_d1 : S64x512x32.ReducesTo [1] S64x32
  bcast_S64x32_S64x32x1_0_1 : S64x32.BroadcastsInDim S64x32x1 (![0, 1] : Fin 2 → Fin S64x32x1.rank)
  bcast_S32x2048_S1x32x2048_1_2 : S32x2048.BroadcastsInDim S1x32x2048 (![1, 2] : Fin 2 → Fin S1x32x2048.rank)
  bcast_S64x32x1_S64x32x2048_0_1_2 : S64x32x1.BroadcastsInDim S64x32x2048 (![0, 1, 2] : Fin 3 → Fin S64x32x2048.rank)
  bcast_S1x32x2048_S64x32x2048_0_1_2 : S1x32x2048.BroadcastsInDim S64x32x2048 (![0, 1, 2] : Fin 3 → Fin S64x32x2048.rank)
  reducesTo_S64x32x2048_S64x32_d2 : S64x32x2048.ReducesTo [2] S64x32
  bcast_S_S64x32x1 : S_.BroadcastsInDim S64x32x1 (![] : Fin 0 → Fin S64x32x1.rank)
  shapeCasts_S64x32x2048_S64x65536 : S64x32x2048.ShapeCasts S64x65536
  reducesTo_S64x65536_S64_d1 : S64x65536.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x65536_0_1 : S64x1.BroadcastsInDim S64x65536 (![0, 1] : Fin 2 → Fin S64x65536.rank)
  dot_S64x512x2048_S32x2048_S64x512x32_2_1_01_0_n_n_wf : DotDims.WF S64x512x2048 S32x2048 S64x512x32 [2] [1] [0, 1] [0] [] []
  dot_S64x512x32_S64x512x2048_S64x32x2048_1_1_2_2_0_0_wf : DotDims.WF S64x512x32 S64x512x2048 S64x32x2048 [1] [1] [2] [2] [0] [0]

variable [Facts₀]

def dot_S64x512x2048_S32x2048_S64x512x32_2_1_01_0_n_n : DotDims S64x512x2048 S32x2048 S64x512x32 where
  lhsContracting := [2]
  rhsContracting := [1]
  lhsNonContracting := [0, 1]
  rhsNonContracting := [0]
  lhsBatch := []
  rhsBatch := []
  wf := dot_S64x512x2048_S32x2048_S64x512x32_2_1_01_0_n_n_wf
def dot_S64x512x32_S64x512x2048_S64x32x2048_1_1_2_2_0_0 : DotDims S64x512x32 S64x512x2048 S64x32x2048 where
  lhsContracting := [1]
  rhsContracting := [1]
  lhsNonContracting := [2]
  rhsNonContracting := [2]
  lhsBatch := [0]
  rhsBatch := [0]
  wf := dot_S64x512x32_S64x512x2048_S64x32x2048_1_1_2_2_0_0_wf

class Facts : Prop extends Facts₀ where

variable [Facts]
-- ==== Proof.NetVlad.lean ====
/-
  The NetVLAD descriptor of one batch element, entry by entry, over the extended reals.

  From a frame matrix `X` (512 frames of 2048 features), projection rows `W` and cluster centres `C` (32 clusters):
  every frame is scaled to unit length (its norm floored at a small positive constant); the scaled frame's inner
  products with the projection rows are turned into soft assignments by a softmax over the clusters (the row maximum is
  subtracted before exponentiating); for each cluster the assignment-weighted sum of scaled frames, minus the
  assignment mass times the cluster centre, is the residual; every residual row is scaled to unit length, and then the
  whole 32 × 2048 table once more.  Every sum is a sum over a finite index type, so no order of summation is fixed.
-/
import Idealize.ShloMosaic.PureOps.Ideal
import Idealize.ShloMosaic.PureOps.Ideal.Laws
import Idealize.ShloMosaic.Lib.ValueIdx

noncomputable section

namespace Cert.NetVlad

open Idealize.ShloMosaic Idealize.ShloMosaic.ValueIdx

/-- The floor under every norm: the float nearest to 10⁻¹². -/
abbrev floorEps : EReal := Ideal.ofBits .f32 0x2B8CBCCC#32
/-- The value every running maximum starts from. -/
abbrev maxStart : EReal := Ideal.ofBits .f32 0xFF800000#32

variable (X : Fin 512 → Fin 2048 → EReal) (W C : Fin 32 → Fin 2048 → EReal)

/-- The floored Euclidean norm of frame `m`. -/
def frameNorm (m : Fin 512) : EReal := max (Ideal.sqrt (∑ d : Fin 2048, X m d * X m d)) floorEps
/-- Frame `m` scaled to unit length, at feature `d`. -/
def unitFrame (m : Fin 512) (d : Fin 2048) : EReal := Ideal.div (X m d) (frameNorm X m)
/-- The inner product of the scaled frame `m` with projection row `k`. -/
def logit (m : Fin 512) (k : Fin 32) : EReal := ∑ d : Fin 2048, unitFrame X m d * W k d
/-- The largest logit of frame `m`. -/
def topLogit (m : Fin 512) : EReal := (Finset.univ : Finset (Fin 32)).fold max maxStart (fun k => logit X W m k)
/-- The shifted exponential. -/
def expo (m : Fin 512) (k : Fin 32) : EReal := Ideal.exp (logit X W m k - topLogit X W m)
/-- The softmax denominator of frame `m`. -/
def expoSum (m : Fin 512) : EReal := ∑ k : Fin 32, expo X W m k
/-- The soft assignment of frame `m` to cluster `k`. -/
def assign (m : Fin 512) (k : Fin 32) : EReal := Ideal.div (expo X W m k) (expoSum X W m)
/-- The assignment mass of cluster `k`. -/
def mass (k : Fin 32) : EReal := ∑ m : Fin 512, assign X W m k
/-- The assignment-weighted sum of scaled frames for cluster `k`, at feature `d`. -/
def gathered (k : Fin 32) (d : Fin 2048) : EReal := ∑ m : Fin 512, assign X W m k * unitFrame X m d
/-- The residual of cluster `k`. -/
def resid (k : Fin 32) (d : Fin 2048) : EReal := gathered X W k d - mass X W k * C k d
/-- The floored norm of residual row `k`. -/
def residNorm (k : Fin 32) : EReal := max (Ideal.sqrt (∑ d : Fin 2048, resid X W C k d * resid X W C k d)) floorEps
/-- The residual row scaled to unit length. -/
def intra (k : Fin 32) (d : Fin 2048) : EReal := Ideal.div (resid X W C k d) (residNorm X W C k)
/-- The squared length of the whole table of scaled residuals. -/
def tableSq : EReal := ∑ k : Fin 32, ∑ d : Fin 2048, intra X W C k d * intra X W C k d
/-- Its floored norm. -/
def tableNorm : EReal := max (Ideal.sqrt (tableSq X W C)) floorEps
/-- The descriptor: the scaled residual divided by the table's norm. -/
def descriptor (k : Fin 32) (d : Fin 2048) : EReal := Ideal.div (intra X W C k d) (tableNorm X W C)

/-- The floor is a positive real number. -/
theorem floorEps_pos : (0 : EReal) < floorEps := by
  simp [floorEps, Ideal.ofBits, Ideal.ieee]
  rw [← EReal.coe_mul, EReal.coe_pos]
  positivity

/-- The table's norm is not zero: it is at least the positive floor. -/
theorem tableNorm_ne_zero : tableNorm X W C ≠ 0 :=
  (lt_of_lt_of_le floorEps_pos (le_max_right _ _)).ne'

/-- Multiplying by the reciprocal of the table's norm is dividing by it: the norm is not zero, and off zero the
    quotient is the product with the inverse. -/
theorem mul_recip_tableNorm (a : EReal) : a * Ideal.div 1 (tableNorm X W C) = Ideal.div a (tableNorm X W C) := by
  unfold Ideal.div
  rw [if_neg (tableNorm_ne_zero X W C), if_neg (tableNorm_ne_zero X W C), one_mul]

/-! ## The whole result -/

/-- The row and the column of a flat position of a flattened 32 × 2048 table. -/
abbrev rowOf (j : Fin 65536) : Fin 32 := ⟨j.val / 2048, by have := j.isLt; omega⟩
abbrev colOf (j : Fin 65536) : Fin 2048 := ⟨j.val % 2048, Nat.mod_lt _ (by decide)⟩

/-- The result array, [64, 65536]: row `b` is the flattened descriptor of batch element `b`, computed from the frame
    array `A` ([64, 512, 2048]), the projection rows `P` and the cluster centres `Q` ([32, 2048] each). -/
def result (A : (⟨3, ![64, 512, 2048]⟩ : Shape).Idx → EReal) (P Q : (⟨2, ![32, 2048]⟩ : Shape).Idx → EReal) :
    (⟨2, ![64, 65536]⟩ : Shape).Idx → EReal := fun i =>
  descriptor (fun m d => A (ix3 (⟨(i 0).val, (i 0).isLt⟩ : Fin 64) m d)) (fun k d => P (ix2 k d)) (fun k d => Q (ix2 k d))
    (rowOf ⟨(i 1).val, (i 1).isLt⟩) (colOf ⟨(i 1).val, (i 1).isLt⟩)

end Cert.NetVlad

end
-- ==== Proof.Products.lean ====
/-
  The kernel's two matrix products read at an index.

  Both accumulate into a zero table, so each entry is a plain sum of products over the one contracted axis:
    • frames × projection rows, contracted over the feature axis of both:  entry (m, k) is  ∑_d  l(m, d) · r(k, d);
    • assignments × frames, contracted over the frame axis of both:        entry (k, d) is  ∑_m  l(m, k) · r(m, d).
  The contraction index of a product with one contracted axis is that axis's coordinate; each operand's index puts the
  coordinate on its contracted axis and copies the output's coordinate on the other.
-/
import proofs.«168646_j55886114455954_1_alg».proof.Proof.Gen.KernelIdeal
import Idealize.ShloMosaic.Lib.ValueIdx
import Idealize.ShloMosaic.PureOps.Ideal.Laws

noncomputable section

namespace Cert.NetVlad.Products

open Idealize.ShloMosaic Idealize.ShloMosaic.ValueIdx Cert.KernelIdeal Cert.KernelIdeal.Gen

/-! ## Frames × projection rows -/

theorem lhsA_0 (i : S512x32.Idx) (q : dot_S512x2048_S32x2048_S512x32_1_1_0_0_n_n.contr.Idx) : (dot_S512x2048_S32x2048_S512x32_1_1_0_0_n_n.lhsIdx i q 0).val = (i 0).val := by
  unfold DotDims.lhsIdx
  rw [dif_neg (show ¬(0 : Fin S512x2048.rank) ∈ dot_S512x2048_S32x2048_S512x32_1_1_0_0_n_n.lhsBatch by decide), dif_pos (show (0 : Fin S512x2048.rank) ∈ dot_S512x2048_S32x2048_S512x32_1_1_0_0_n_n.lhsNonContracting by decide)]
  rfl
theorem lhsA_1 (i : S512x32.Idx) (q : dot_S512x2048_S32x2048_S512x32_1_1_0_0_n_n.contr.Idx) : (dot_S512x2048_S32x2048_S512x32_1_1_0_0_n_n.lhsIdx i q 1).val = (q ⟨0, by decide⟩).val :=
  dot_S512x2048_S32x2048_S512x32_1_1_0_0_n_n.lhsIdx_val_of_single rfl i q
theorem rhsA_0 (i : S512x32.Idx) (q : dot_S512x2048_S32x2048_S512x32_1_1_0_0_n_n.contr.Idx) : (dot_S512x2048_S32x2048_S512x32_1_1_0_0_n_n.rhsIdx i q 0).val = (i 1).val := by
  unfold DotDims.rhsIdx
  rw [dif_neg (show ¬(0 : Fin S32x2048.rank) ∈ dot_S512x2048_S32x2048_S512x32_1_1_0_0_n_n.rhsBatch by decide), dif_pos (show (0 : Fin S32x2048.rank) ∈ dot_S512x2048_S32x2048_S512x32_1_1_0_0_n_n.rhsNonContracting by decide)]
  rfl
theorem rhsA_1 (i : S512x32.Idx) (q : dot_S512x2048_S32x2048_S512x32_1_1_0_0_n_n.contr.Idx) : (dot_S512x2048_S32x2048_S512x32_1_1_0_0_n_n.rhsIdx i q 1).val = (q ⟨0, by decide⟩).val :=
  dot_S512x2048_S32x2048_S512x32_1_1_0_0_n_n.rhsIdx_val_of_single rfl i q

/-- Entry `(m, k)` of the product of a `[512, 2048]` table with a `[32, 2048]` table over their feature axes, from the
    zero table, is the sum over the features of the products of row `m` of the first and row `k` of the second. -/
theorem logits_apply (l : FVec Ideal S512x2048 .bf16) (r : FVec Ideal S32x2048 .bf16) (m : Fin 512) (k : Fin 32) :
    matmul dot_S512x2048_S32x2048_S512x32_1_1_0_0_n_n none l r (constant S512x32 .f32 0x00000000#32) (ix2 m k) = ∑ d : Fin 2048, l (ix2 m d) * r (ix2 k d) := by
  simp only [matmul]
  rw [Ideal.matmul_constant_zero_apply, ← Equiv.sum_comp (contrEquiv1 dot_S512x2048_S32x2048_S512x32_1_1_0_0_n_n 2048 rfl rfl).symm]
  refine Finset.sum_congr rfl fun d _ => ?_
  have hk := contrEquiv1_symm_val dot_S512x2048_S32x2048_S512x32_1_1_0_0_n_n 2048 rfl rfl d
  have el : dot_S512x2048_S32x2048_S512x32_1_1_0_0_n_n.lhsIdx (ix2 m k) ((contrEquiv1 dot_S512x2048_S32x2048_S512x32_1_1_0_0_n_n 2048 rfl rfl).symm d) = ix2 m d := funext fun a => Fin.ext (by
    match a with
    | ⟨0, _⟩ => exact lhsA_0 _ _
    | ⟨1, _⟩ => exact (lhsA_1 _ _).trans hk)
  have er : dot_S512x2048_S32x2048_S512x32_1_1_0_0_n_n.rhsIdx (ix2 m k) ((contrEquiv1 dot_S512x2048_S32x2048_S512x32_1_1_0_0_n_n 2048 rfl rfl).symm d) = ix2 k d := funext fun a => Fin.ext (by
    match a with
    | ⟨0, _⟩ => exact rhsA_0 _ _
    | ⟨1, _⟩ => exact (rhsA_1 _ _).trans hk)
  rw [el, er]

/-! ## Assignments × frames -/

theorem lhsB_0 (i : S32x2048.Idx) (q : dot_S512x32_S512x2048_S32x2048_0_0_1_1_n_n.contr.Idx) : (dot_S512x32_S512x2048_S32x2048_0_0_1_1_n_n.lhsIdx i q 0).val = (q ⟨0, by decide⟩).val :=
  dot_S512x32_S512x2048_S32x2048_0_0_1_1_n_n.lhsIdx_val_of_single rfl i q
theorem lhsB_1 (i : S32x2048.Idx) (q : dot_S512x32_S512x2048_S32x2048_0_0_1_1_n_n.contr.Idx) : (dot_S512x32_S512x2048_S32x2048_0_0_1_1_n_n.lhsIdx i q 1).val = (i 0).val := by
  unfold DotDims.lhsIdx
  rw [dif_neg (show ¬(1 : Fin S512x32.rank) ∈ dot_S512x32_S512x2048_S32x2048_0_0_1_1_n_n.lhsBatch by decide), dif_pos (show (1 : Fin S512x32.rank) ∈ dot_S512x32_S512x2048_S32x2048_0_0_1_1_n_n.lhsNonContracting by decide)]
  rfl
theorem rhsB_0 (i : S32x2048.Idx) (q : dot_S512x32_S512x2048_S32x2048_0_0_1_1_n_n.contr.Idx) : (dot_S512x32_S512x2048_S32x2048_0_0_1_1_n_n.rhsIdx i q 0).val = (q ⟨0, by decide⟩).val :=
  dot_S512x32_S512x2048_S32x2048_0_0_1_1_n_n.rhsIdx_val_of_single rfl i q
theorem rhsB_1 (i : S32x2048.Idx) (q : dot_S512x32_S512x2048_S32x2048_0_0_1_1_n_n.contr.Idx) : (dot_S512x32_S512x2048_S32x2048_0_0_1_1_n_n.rhsIdx i q 1).val = (i 1).val := by
  unfold DotDims.rhsIdx
  rw [dif_neg (show ¬(1 : Fin S512x2048.rank) ∈ dot_S512x32_S512x2048_S32x2048_0_0_1_1_n_n.rhsBatch by decide), dif_pos (show (1 : Fin S512x2048.rank) ∈ dot_S512x32_S512x2048_S32x2048_0_0_1_1_n_n.rhsNonContracting by decide)]
  rfl

/-- Entry `(k, d)` of the product of a `[512, 32]` table with a `[512, 2048]` table over their frame axes, from the zero
    table, is the sum over the frames of the products of column `k` of the first and column `d` of the second. -/
theorem gathered_apply (l : FVec Ideal S512x32 .bf16) (r : FVec Ideal S512x2048 .bf16) (k : Fin 32) (d : Fin 2048) :
    matmul dot_S512x32_S512x2048_S32x2048_0_0_1_1_n_n none l r (constant S32x2048 .f32 0x00000000#32) (ix2 k d) = ∑ m : Fin 512, l (ix2 m k) * r (ix2 m d) := by
  simp only [matmul]
  rw [Ideal.matmul_constant_zero_apply, ← Equiv.sum_comp (contrEquiv1 dot_S512x32_S512x2048_S32x2048_0_0_1_1_n_n 512 rfl rfl).symm]
  refine Finset.sum_congr rfl fun m _ => ?_
  have hk := contrEquiv1_symm_val dot_S512x32_S512x2048_S32x2048_0_0_1_1_n_n 512 rfl rfl m
  have el : dot_S512x32_S512x2048_S32x2048_0_0_1_1_n_n.lhsIdx (ix2 k d) ((contrEquiv1 dot_S512x32_S512x2048_S32x2048_0_0_1_1_n_n 512 rfl rfl).symm m) = ix2 m k := funext fun a => Fin.ext (by
    match a with
    | ⟨0, _⟩ => exact (lhsB_0 _ _).trans hk
    | ⟨1, _⟩ => exact lhsB_1 _ _)
  have er : dot_S512x32_S512x2048_S32x2048_0_0_1_1_n_n.rhsIdx (ix2 k d) ((contrEquiv1 dot_S512x32_S512x2048_S32x2048_0_0_1_1_n_n 512 rfl rfl).symm m) = ix2 m d := funext fun a => Fin.ext (by
    match a with
    | ⟨0, _⟩ => exact (rhsB_0 _ _).trans hk
    | ⟨1, _⟩ => exact rhsB_1 _ _)
  rw [el, er]

end Cert.NetVlad.Products

end
-- ==== Proof.LibSmallLayout.lean ====
/-
  A few more values read at an index given by coordinates.

    • the square root and the exponential of a vector of extended reals are taken entry by entry;
    • a `[1, 1]` array spread to `[a, b]` reads its one entry everywhere;
    • a splat of a scalar word reads that word's value everywhere.
-/
import Idealize.ShloMosaic.Lib.ValueLayout
import Idealize.ShloMosaic.PureOps.Ideal.Laws

namespace Cert.SmallLayout

open Idealize.ShloMosaic Idealize.ShloMosaic.ValueIdx

variable {α : Type} {s : Shape} {φ : FTy}

/-- The square root of a vector of extended reals, at an index, is the square root of the entry there. -/
theorem sqrt_apply (a : FVec Ideal s φ) (i : s.Idx) : sqrt a i = Ideal.sqrt (a i) := rfl

/-- The exponential of a vector of extended reals, at an index, is the exponential of the entry there. -/
theorem exp_apply (a : FVec Ideal s φ) (i : s.Idx) : exp a i = Ideal.exp (a i) := rfl

/-- A splat of the scalar a word denotes reads, at every index, the extended real the word denotes. -/
theorem broadcast_ofBits_apply (b : BitVec (FTy.f32).bits) (i : s.Idx) :
    broadcast s (Scalar.ofBits (F := Ideal) .f32 b) i = Ideal.ofBits .f32 b := rfl

/-- A `[1, 1]` array broadcast to `[a, b]` reads, at every `(i, j)`, its one entry. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

end Cert.SmallLayout
-- ==== Proof.LibColumnLayout.lean ====
/-
  Column vectors read at an index given by coordinates.

  A sum along the rows of an `[a, b]` array is an `[a]` vector; kept as a matrix it is the column `[a, 1]`, and a
  column is spread along the second axis to `[a, b]`. Each of these re-lays values without
  computing anything: the result at an index is the operand at one index, named here by coordinates.
    • `[a] → [a, 1]` (a shape cast): entry `(i, u)` is entry `i`, whatever the unit coordinate `u`;
    • `[a, 1] → [a, b]` (a broadcast): entry `(i, j)` is entry `(i, 0)`;
    • a sum along the second axis of an `[a, b]` array of extended reals: entry `i` is `∑ⱼ` of entry `(i, j)`.
  The companions for rows (`[a] → [1, a]`, `[1, b] → [a, b]`) and the matrix transpose are the library's.
-/
import Idealize.ShloMosaic.Lib.ValueLayout
import Idealize.ShloMosaic.PureOps.Ideal.Laws

namespace Cert.ColumnLayout

open Idealize.ShloMosaic Idealize.ShloMosaic.ValueIdx

variable {α : Type}

/-- An `[a]` array cast to the column `[a, 1]` reads, at `(i, u)`, the operand at `i`: both indices have the same
    row-major position, `i·1 + u = i` since `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A sum along the second axis of an `[a, b]` array of extended reals, from the zero accumulator, reads at `i` the sum
    over `j` of the entries `(i, j)`. The last hypothesis says that the accumulator's word, zero, is the neutral
    word of addition. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = ∑ j : Fin b, src (ix2 i j)
  refine Finset.sum_congr rfl fun j _ => congrArg src (funext fun c => Fin.ext ?_)
  match c with
  | ⟨0, _⟩ => rfl
  | ⟨1, _⟩ => rfl

end Cert.ColumnLayout
-- ==== Proof.LibMatrixReduce.lean ====
/-
  Reductions along one axis of a matrix of extended reals, read at an index given by coordinates.

  For an `[a, b]` array `src`:
    • the maximum along the second axis, taken from the value of a start word, is at `i` the running maximum, from
      that value, of the entries `(i, j)` over all `j`;
    • the maximum along the first axis is at `j` the running maximum of the entries `(i, j)` over all `i`;
    • the sum along the first axis, from the zero word, is at `j` the sum over `i` of the entries `(i, j)`.
  A running maximum over a finite index set does not depend on the order in which the entries are met, so it is
  written as a fold of `max` over the whole index set. (The sum along the second axis is the companion file's.)
-/
import Idealize.ShloMosaic.Lib.ValueIdx
import Idealize.ShloMosaic.PureOps.Ideal.Laws

namespace Cert.MatrixReduce

open Idealize.ShloMosaic Idealize.ShloMosaic.ValueIdx

/-- The maximum along the second axis of an `[a, b]` array, from the start word `acc`, reads at `i` the fold of `max`
    from that word's value over the entries `(i, j)`. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (i : Fin a) :
    multiReduction .maximumf [1] ⟨1, ![a]⟩ src acc h hφ hacc (ix1 i)
      = (Finset.univ : Finset (Fin b)).fold max (Ideal.ofBits .f32 acc) (fun j => src (ix2 i j)) := by
  refine (Ideal.multiReduction_maximumf_single src acc h hφ hacc (ix1 i)).trans ?_
  show (Finset.univ : Finset (Fin b)).fold max (Ideal.ofBits .f32 acc) (src ∘ h.lift (ix1 i)) = _
  refine congrArg (fun f => (Finset.univ : Finset (Fin b)).fold max (Ideal.ofBits .f32 acc) f) (funext fun j => ?_)
  refine congrArg src (funext fun c => Fin.ext ?_)
  match c with
  | ⟨0, _⟩ => rfl
  | ⟨1, _⟩ => rfl

/-- The maximum along the first axis of an `[a, b]` array, from the start word `acc`, reads at `j` the fold of `max`
    from that word's value over the entries `(i, j)`. -/
theorem colMax_apply {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.maximumf.neutral .f32 hφ) (j : Fin b) :
    multiReduction .maximumf [0] ⟨1, ![b]⟩ src acc h hφ hacc (ix1 j)
      = (Finset.univ : Finset (Fin a)).fold max (Ideal.ofBits .f32 acc) (fun i => src (ix2 i j)) := by
  refine (Ideal.multiReduction_maximumf_single src acc h hφ hacc (ix1 j)).trans ?_
  show (Finset.univ : Finset (Fin a)).fold max (Ideal.ofBits .f32 acc) (src ∘ h.lift (ix1 j)) = _
  refine congrArg (fun f => (Finset.univ : Finset (Fin a)).fold max (Ideal.ofBits .f32 acc) f) (funext fun i => ?_)
  refine congrArg src (funext fun c => Fin.ext ?_)
  match c with
  | ⟨0, _⟩ => rfl
  | ⟨1, _⟩ => rfl

/-- The sum along the first axis of an `[a, b]` array of extended reals, from the zero accumulator, reads at `j` the
    sum over `i` of the entries `(i, j)`. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (j : Fin b) :
    multiReduction .add [0] ⟨1, ![b]⟩ src 0x00000000#32 h hφ hacc (ix1 j) = ∑ i : Fin a, src (ix2 i j) := by
  refine (Ideal.multiReduction_add_single src 0x00000000#32 h hφ hacc (ix1 j)).trans ?_
  show ∑ i : Fin a, src (h.lift (ix1 j) i) = ∑ i : Fin a, src (ix2 i j)
  refine Finset.sum_congr rfl fun i _ => congrArg src (funext fun c => Fin.ext ?_)
  match c with
  | ⟨0, _⟩ => rfl
  | ⟨1, _⟩ => rfl

end Cert.MatrixReduce
-- ==== Proof.Body.lean ====
/-
  The kernel's body, stage by stage, is the descriptor of its frame block.

  One grid point loads a block `x0` of shape [1, 512, 2048] (one batch element's frames), the projection rows `x1` and
  the cluster centres `x2` (both [32, 2048]).  Each stage below is one value of the body, written as the body writes
  it; read at an index given by coordinates it is the corresponding entry of the descriptor's definition for the frame
  matrix `(m, d) ↦ x0 (0, m, d)` and the tables `(k, d) ↦ x1 (k, d)`, `(k, d) ↦ x2 (k, d)`.  Changes of float format are
  the identity on extended reals, a column kept as a `[·, 1]` matrix and spread along the other axis reads the column's
  entry, and the two matrix products are plain sums of products.
-/
import proofs.«168646_j55886114455954_1_alg».proof.Proof.Gen.KernelIdeal.Skeleton
import proofs.«168646_j55886114455954_1_alg».proof.Proof.NetVlad
import proofs.«168646_j55886114455954_1_alg».proof.Proof.Products
import proofs.«168646_j55886114455954_1_alg».proof.Proof.LibSmallLayout
import proofs.«168646_j55886114455954_1_alg».proof.Proof.LibColumnLayout
import proofs.«168646_j55886114455954_1_alg».proof.Proof.LibMatrixReduce
import Idealize.ShloMosaic.Lib.ValueLayout

noncomputable section

namespace Cert.NetVlad.Body

open Idealize.ShloMosaic Idealize.ShloMosaic.ValueIdx Cert.KernelIdeal Cert.KernelIdeal.Gen
open Cert.ColumnLayout Cert.MatrixReduce Cert.SmallLayout

set_option backward.isDefEq.respectTransparency.types false in
/-- The frame matrix of a block: frame `m`, feature `d`. -/
def framesOf (x0 : Vec Ideal S1x512x2048 .f32) : Fin 512 → Fin 2048 → EReal := fun m d => x0 (ix3 (0 : Fin 1) m d)
/-- A [32, 2048] table by coordinates. -/
def rowsOf (x : Vec Ideal S32x2048 .f32) : Fin 32 → Fin 2048 → EReal := fun k d => x (ix2 k d)

variable (x0 : Vec Ideal S1x512x2048 .f32) (x1 x2 : Vec Ideal S32x2048 .f32)

/-! ## The stages, as the body writes them -/

/-- The block as a matrix. -/
def sFrames : FVec Ideal S512x2048 .f32 := shapeCast S512x2048 x0 shapeCasts_S1x512x2048_S512x2048
/-- The floored frame norms, as a column. -/
def sFrameNorm : FVec Ideal S512x1 .f32 :=
  maximumf (sqrt (shapeCast S512x1 (multiReduction .add [1] S512 (mulf (sFrames x0) (sFrames x0)) 0x00000000#32 reduces_S512x2048_S512 (.inl rfl) rfl) shapeCasts_S512_S512x1))
    (broadcast S512x1 (Scalar.ofBits .f32 0x2B8CBCCC#32))
/-- The scaled frames. -/
def sUnit : FVec Ideal S512x2048 .f32 := divf (sFrames x0) (broadcastTo S512x2048 (sFrameNorm x0) broadcasts_S512x1_S512x2048)
/-- The logits. -/
def sLogit : FVec Ideal S512x32 .f32 :=
  matmul dot_S512x2048_S32x2048_S512x32_1_1_0_0_n_n none (truncf .bf16 (sUnit x0) bitsLt_bf16_f32) (truncf .bf16 x1 bitsLt_bf16_f32) (constant S512x32 .f32 0x00000000#32)
/-- The row maxima of the logits. -/
def sTop : FVec Ideal S512 .f32 := multiReduction .maximumf [1] S512 (sLogit x0 x1) 0xFF800000#32 reduces_S512x32_S512 (.inl rfl) rfl
/-- The shifted exponentials. -/
def sExpo : FVec Ideal S512x32 .f32 :=
  exp (subf (sLogit x0 x1) (broadcastTo S512x32 (shapeCast S512x1 (sTop x0 x1) shapeCasts_S512_S512x1) broadcasts_S512x1_S512x32))
/-- Their row sums. -/
def sExpoSum : FVec Ideal S512 .f32 := multiReduction .add [1] S512 (sExpo x0 x1) 0x00000000#32 reduces_S512x32_S512 (.inl rfl) rfl
/-- The soft assignments. -/
def sAssign : FVec Ideal S512x32 .f32 :=
  divf (sExpo x0 x1) (broadcastTo S512x32 (shapeCast S512x1 (sExpoSum x0 x1) shapeCasts_S512_S512x1) broadcasts_S512x1_S512x32)
/-- The assignment masses, as a column. -/
def sMass : FVec Ideal S32x1 .f32 :=
  transpose S32x1 [1, 0] (shapeCast S1x32 (multiReduction .add [0] S32 (sAssign x0 x1) 0x00000000#32 reduces_S512x32_S32 (.inl rfl) rfl) shapeCasts_S32_S1x32) transposes_S1x32_p1_0_S32x1
/-- The assignment-weighted sums of scaled frames. -/
def sGathered : FVec Ideal S32x2048 .f32 :=
  matmul dot_S512x32_S512x2048_S32x2048_0_0_1_1_n_n none (truncf .bf16 (sAssign x0 x1) bitsLt_bf16_f32) (truncf .bf16 (sUnit x0) bitsLt_bf16_f32) (constant S32x2048 .f32 0x00000000#32)
/-- The residuals. -/
def sResid : FVec Ideal S32x2048 .f32 := subf (sGathered x0 x1) (mulf (broadcastTo S32x2048 (sMass x0 x1) broadcasts_S32x1_S32x2048) x2)
/-- The floored residual norms, as a column. -/
def sResidNorm : FVec Ideal S32x1 .f32 :=
  maximumf (sqrt (shapeCast S32x1 (multiReduction .add [1] S32 (mulf (sResid x0 x1 x2) (sResid x0 x1 x2)) 0x00000000#32 reduces_S32x2048_S32 (.inl rfl) rfl) shapeCasts_S32_S32x1))
    (broadcast S32x1 (Scalar.ofBits .f32 0x2B8CBCCC#32))
/-- The residual rows scaled to unit length. -/
def sIntra : FVec Ideal S32x2048 .f32 := divf (sResid x0 x1 x2) (broadcastTo S32x2048 (sResidNorm x0 x1 x2) broadcasts_S32x1_S32x2048)
/-- The squared lengths of the scaled residual rows. -/
def sRowSq : FVec Ideal S32 .f32 := multiReduction .add [1] S32 (mulf (sIntra x0 x1 x2) (sIntra x0 x1 x2)) 0x00000000#32 reduces_S32x2048_S32 (.inl rfl) rfl
/-- The stored block, from the scaled residuals and their rows' squared lengths. -/
def sOut (v39 : FVec Ideal S32x2048 .f32) (v41 : FVec Ideal S32 .f32) : FVec Ideal S1x32x2048 .f32 :=
  shapeCast S1x32x2048 (mulf v39 (broadcastTo S32x2048
    (divf (broadcast S1x1 (Scalar.ofBits .f32 0x3F800000#32))
      (maximumf (sqrt (shapeCast S1x1 (multiReduction .add [0] S1 (shapeCast S32x1 v41 shapeCasts_S32_S32x1) 0x00000000#32 reduces_S32x1_S1 (.inl rfl) rfl) shapeCasts_S1_S1x1))
        (broadcast S1x1 (Scalar.ofBits .f32 0x2B8CBCCC#32))))
    broadcasts_S1x1_S32x2048)) shapeCasts_S32x2048_S1x32x2048

/-- The body's three named values are these stages. -/
theorem pay2_eq : k0_pay2 (F := Ideal) x0 x1 x2 = sIntra x0 x1 x2 := rfl
theorem pay3_eq : k0_pay3 (F := Ideal) x0 x1 x2 = sRowSq x0 x1 x2 := rfl
theorem pay1_eq (v39 : FVec Ideal S32x2048 .f32) (v41 : FVec Ideal S32 .f32) : k0_pay1 (F := Ideal) v39 v41 = sOut v39 v41 := rfl

/-! ## Each stage read at an index -/

open Cert.NetVlad

theorem sFrames_apply (m : Fin 512) (d : Fin 2048) : sFrames x0 (ix2 m d) = framesOf x0 m d :=
  shapeCast_1ab_ab_apply x0 _ m d

set_option backward.isDefEq.respectTransparency.types false in
theorem sFrameNorm_apply (m : Fin 512) (u : Fin 1) : sFrameNorm x0 (ix2 m u) = frameNorm (framesOf x0) m := by
  unfold sFrameNorm frameNorm
  rw [maximumf_apply, sqrt_apply, shapeCast_a_a1_apply, rowSum_apply, broadcast_ofBits_apply]
  simp only [mulf_apply, sFrames_apply]

theorem sUnit_apply (m : Fin 512) (d : Fin 2048) : sUnit x0 (ix2 m d) = unitFrame (framesOf x0) m d := by
  unfold sUnit unitFrame
  rw [divf_apply, broadcastTo_a1_ab_apply, sFrames_apply, sFrameNorm_apply]

theorem sLogit_apply (m : Fin 512) (k : Fin 32) : sLogit x0 x1 (ix2 m k) = logit (framesOf x0) (rowsOf x1) m k := by
  unfold sLogit logit
  rw [Products.logits_apply]
  simp only [truncf_apply, sUnit_apply, rowsOf]

set_option backward.isDefEq.respectTransparency.types false in
theorem sTop_apply (m : Fin 512) : sTop x0 x1 (ix1 m) = topLogit (framesOf x0) (rowsOf x1) m := by
  unfold sTop topLogit
  rw [rowMax_apply]
  simp only [sLogit_apply]

theorem sExpo_apply (m : Fin 512) (k : Fin 32) : sExpo x0 x1 (ix2 m k) = expo (framesOf x0) (rowsOf x1) m k := by
  unfold sExpo expo
  rw [exp_apply, subf_apply, broadcastTo_a1_ab_apply, shapeCast_a_a1_apply, sLogit_apply, sTop_apply]

set_option backward.isDefEq.respectTransparency.types false in
theorem sExpoSum_apply (m : Fin 512) : sExpoSum x0 x1 (ix1 m) = expoSum (framesOf x0) (rowsOf x1) m := by
  unfold sExpoSum expoSum
  rw [rowSum_apply]
  simp only [sExpo_apply]

theorem sAssign_apply (m : Fin 512) (k : Fin 32) : sAssign x0 x1 (ix2 m k) = assign (framesOf x0) (rowsOf x1) m k := by
  unfold sAssign assign
  rw [divf_apply, broadcastTo_a1_ab_apply, shapeCast_a_a1_apply, sExpo_apply, sExpoSum_apply]

set_option backward.isDefEq.respectTransparency.types false in
theorem sMass_apply (k : Fin 32) (u : Fin 1) : sMass x0 x1 (ix2 k u) = mass (framesOf x0) (rowsOf x1) k := by
  unfold sMass mass
  rw [transpose_ix2_apply, shapeCast_a_1a_apply, colSum_apply]
  simp only [sAssign_apply]

theorem sGathered_apply (k : Fin 32) (d : Fin 2048) : sGathered x0 x1 (ix2 k d) = gathered (framesOf x0) (rowsOf x1) k d := by
  unfold sGathered gathered
  rw [Products.gathered_apply]
  simp only [truncf_apply, sAssign_apply, sUnit_apply]

theorem sResid_apply (k : Fin 32) (d : Fin 2048) :
    sResid x0 x1 x2 (ix2 k d) = resid (framesOf x0) (rowsOf x1) (rowsOf x2) k d := by
  unfold sResid resid
  rw [subf_apply, mulf_apply, broadcastTo_a1_ab_apply, sGathered_apply, sMass_apply]
  rfl

set_option backward.isDefEq.respectTransparency.types false in
theorem sResidNorm_apply (k : Fin 32) (u : Fin 1) :
    sResidNorm x0 x1 x2 (ix2 k u) = residNorm (framesOf x0) (rowsOf x1) (rowsOf x2) k := by
  unfold sResidNorm residNorm
  rw [maximumf_apply, sqrt_apply, shapeCast_a_a1_apply, rowSum_apply, broadcast_ofBits_apply]
  simp only [mulf_apply, sResid_apply]

theorem sIntra_apply (k : Fin 32) (d : Fin 2048) :
    sIntra x0 x1 x2 (ix2 k d) = intra (framesOf x0) (rowsOf x1) (rowsOf x2) k d := by
  unfold sIntra intra
  rw [divf_apply, broadcastTo_a1_ab_apply, sResid_apply, sResidNorm_apply]

set_option backward.isDefEq.respectTransparency.types false in
theorem sRowSq_apply (k : Fin 32) :
    sRowSq x0 x1 x2 (ix1 k)
      = ∑ d : Fin 2048, intra (framesOf x0) (rowsOf x1) (rowsOf x2) k d * intra (framesOf x0) (rowsOf x1) (rowsOf x2) k d := by
  unfold sRowSq
  rw [rowSum_apply]
  simp only [mulf_apply, sIntra_apply]

/-- The word of the float one denotes the extended real one. -/
theorem ofBits_one_f32 : Ideal.ofBits .f32 0x3F800000#32 = 1 := by
  simp [Ideal.ofBits, Ideal.ieee]
  rw [← EReal.coe_mul, ← EReal.coe_one, EReal.coe_eq_coe_iff]
  norm_num

/-- The stored block at `(u, k, d)`: the scaled residual there times the reciprocal of the floored root of the sum of the
    rows' squared lengths. -/
theorem sOut_apply (v39 : FVec Ideal S32x2048 .f32) (v41 : FVec Ideal S32 .f32) (u : Fin 1) (k : Fin 32) (d : Fin 2048) :
    sOut v39 v41 (ix3 u k d) = v39 (ix2 k d) * Ideal.div 1 (max (Ideal.sqrt (∑ k' : Fin 32, v41 (ix1 k'))) floorEps) := by
  unfold sOut
  rw [shapeCast_ab_1ab_apply, mulf_apply, broadcastTo_11_ab_apply, divf_apply, broadcast_ofBits_apply, maximumf_apply, sqrt_apply,
    shapeCast_a_a1_apply, broadcast_ofBits_apply, ofBits_one_f32]
  refine congrArg (fun t => v39 (ix2 k d) * Ideal.div 1 (max (Ideal.sqrt t) floorEps)) ?_
  refine (colSum_apply (shapeCast S32x1 v41 shapeCasts_S32_S32x1) reduces_S32x1_S1 (.inl rfl) rfl (0 : Fin 1)).trans ?_
  simp only [shapeCast_a_a1_apply]

/-- THE BLOCK a grid point stores, entry by entry, is the descriptor of the block's frames. -/
theorem block_apply (u : Fin 1) (k : Fin 32) (d : Fin 2048) :
    k0_pay1 (F := Ideal) (k0_pay2 x0 x1 x2) (k0_pay3 x0 x1 x2) (ix3 u k d)
      = descriptor (framesOf x0) (rowsOf x1) (rowsOf x2) k d := by
  rw [pay2_eq, pay3_eq, pay1_eq, sOut_apply, sIntra_apply]
  simp only [sRowSq_apply]
  exact mul_recip_tableNorm _ _ _ _

end Cert.NetVlad.Body

end
-- ==== Proof.KernelRun.lean ====
/-
  The kernel's run: what its result array holds.

  Grid point `t` stages frame block `t` of the frame array and the two whole tables, and writes back block `t` of a
  [64, 32, 2048] array; the block it writes is the descriptor of that batch element (the body's value, entry by
  entry).  A block's coordinate on an axis is always the block index times the block's extent plus the coordinate
  inside the block, and here the block index is `(t, 0, 0)` for the frames and the output and `(0, 0)` for the tables.
  The 64 output blocks tile the array, so after the run the array is the table of all descriptors; the program's last
  line flattens each 32 × 2048 table into a row of 65536 entries, position `k·2048 + d` for entry `(k, d)`.
-/
import proofs.«168646_j55886114455954_1_alg».proof.Proof.Gen.KernelIdeal.Frame
import proofs.«168646_j55886114455954_1_alg».proof.Proof.Body
import Idealize.ShloMosaic.Lib.Pipeline.Value
import Idealize.ShloMosaic.Lib.StableHlo.Run

set_option maxRecDepth 16384

noncomputable section

namespace Cert.NetVlad.KernelRun

open Idealize.ShloMosaic Idealize.ShloMosaic.TcCoe Idealize.ShloMosaic.ValueIdx Idealize.SL.Sem
open Cert.KernelIdeal Cert.KernelIdeal.Gen Cert.NetVlad

/-- The table of all descriptors, [64, 32, 2048]: entry `(b, k, d)` is entry `(k, d)` of batch element `b`'s descriptor. -/
def tables (A : S64x512x2048.Idx → EReal) (P Q : S32x2048.Idx → EReal) : S64x32x2048.Idx → EReal := fun i =>
  descriptor (fun m d => A (ix3 (⟨(i 0).val, (i 0).isLt⟩ : Fin 64) m d)) (fun k d => P (ix2 k d)) (fun k d => Q (ix2 k d))
    (⟨(i 1).val, (i 1).isLt⟩ : Fin 32) (⟨(i 2).val, (i 2).isLt⟩ : Fin 2048)

theorem zero3 : (![0, 0, 0] : Fin 3 → Nat) = fun _ => 0 := funext fun a => by fin_cases a <;> rfl
theorem zero2 : (![0, 0] : Fin 2 → Nat) = fun _ => 0 := funext fun a => by fin_cases a <;> rfl

/-- The block indices of the four windows at every grid point, decided over the 64 points. -/
theorem block_indices : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The stored block at any index of the block's shape. -/
theorem block_entry (x0 : Vec Ideal S1x512x2048 .f32) (x1 x2 : Vec Ideal S32x2048 .f32) (y : S1x32x2048.Idx) :
    k0_pay1 (F := Ideal) (k0_pay2 x0 x1 x2) (k0_pay3 x0 x1 x2) y
      = descriptor (Body.framesOf x0) (Body.rowsOf x1) (Body.rowsOf x2) (⟨(y 1).val, (y 1).isLt⟩ : Fin 32) (⟨(y 2).val, (y 2).isLt⟩ : Fin 2048) := by
  obtain ⟨u, k, d, rfl⟩ : ∃ (u : Fin 1) (k : Fin 32) (d : Fin 2048), y = ix3 u k d := ⟨y 0, y 1, y 2, eq_ix3 y⟩
  exact Body.block_apply x0 x1 x2 u k d

variable (m : (ℓ : Loc nD τ sig) → Buf (Elt Ideal) ℓ) (ρ : Dev nD → PrngReg)

/-- WHAT POINT `t` WRITES BACK is block `t` of the table of all descriptors of the argument arrays. -/
theorem flushed_eq (c : Dev nD) (t : Fin cfg0.N) :
    (dats m 0 c).flushed 3 t = ((cfg0.win 3).blk t).view.read (Elt Ideal) (tables (V m c main_arg0) (V m c main_arg1) (V m c main_arg2)) := by
  show (cfg0.win 3).cut (grid0.coords t) ((dats m 0 c).after 3 t) = _
  rw [after0_3]
  unfold out0_3
  rw [View.canon_unit_zero zero3]
  simp only [View.ld_unit_zero (S := S1x512x2048) zero3, View.ld_unit_zero (S := S32x2048) zero2]
  obtain ⟨a0, a1, a2, b0, b1, c0, c1, o0, o1, o2⟩ := block_indices t
  funext y
  refine (block_entry (iblk m c 0 t) (iblk m c 1 t) (iblk m c 2 t) y).trans ?_
  show _ = tables (V m c main_arg0) (V m c main_arg1) (V m c main_arg2) (((cfg0.win 3).blk t).view.emb y)
  unfold tables
  have hy0 : (y 0).val < 1 := (y 0).isLt
  have eF : Body.framesOf (iblk m c 0 t) = fun m' d => V m c main_arg0 (ix3 (⟨(((cfg0.win 3).blk t).view.emb y 0).val, (((cfg0.win 3).blk t).view.emb y 0).isLt⟩ : Fin 64) m' d) := by
    funext m' d
    show V m c main_arg0 (((cfg0.win 0).blk t).view.emb (ix3 (0 : Fin 1) m' d)) = _
    refine congrArg (V m c main_arg0) (funext fun a => Fin.ext ?_)
    match a with
    | ⟨0, _⟩ => show win0_0.index t (0 : Fin 3) * 1 + 1 * 0 = win0_3.index t (0 : Fin 3) * 1 + 1 * (y 0).val; omega
    | ⟨1, _⟩ => show win0_0.index t (1 : Fin 3) * 512 + 1 * m'.val = m'.val; omega
    | ⟨2, _⟩ => show win0_0.index t (2 : Fin 3) * 2048 + 1 * d.val = d.val; omega
  have eP : Body.rowsOf (iblk m c 1 t) = fun k d => V m c main_arg1 (ix2 k d) := by
    funext k d
    show V m c main_arg1 (((cfg0.win 1).blk t).view.emb (ix2 k d)) = _
    refine congrArg (V m c main_arg1) (funext fun a => Fin.ext ?_)
    match a with
    | ⟨0, _⟩ => show win0_1.index t (0 : Fin 2) * 32 + 1 * k.val = k.val; omega
    | ⟨1, _⟩ => show win0_1.index t (1 : Fin 2) * 2048 + 1 * d.val = d.val; omega
  have eQ : Body.rowsOf (iblk m c 2 t) = fun k d => V m c main_arg2 (ix2 k d) := by
    funext k d
    show V m c main_arg2 (((cfg0.win 2).blk t).view.emb (ix2 k d)) = _
    refine congrArg (V m c main_arg2) (funext fun a => Fin.ext ?_)
    match a with
    | ⟨0, _⟩ => show win0_2.index t (0 : Fin 2) * 32 + 1 * k.val = k.val; omega
    | ⟨1, _⟩ => show win0_2.index t (1 : Fin 2) * 2048 + 1 * d.val = d.val; omega
  rw [eF, eP, eQ]
  congr 1 <;> refine Fin.ext ?_
  · show (y 1).val = win0_3.index t (1 : Fin 3) * 32 + 1 * (y 1).val; omega
  · show (y 2).val = win0_3.index t (2 : Fin 3) * 2048 + 1 * (y 2).val; omega

/-- An index of the output array is in point `t`'s block iff each coordinate is in the block's range on its axis. -/
theorem mem_blk (t : Fin cfg0.N) (i : S64x32x2048.Idx) :
    i ∈ ((cfg0.win 3).blk t).view.set ↔ ∀ a : Fin 3, win0_3.index t a * S1x32x2048.size a ≤ (i a).val ∧ (i a).val < win0_3.index t a * S1x32x2048.size a + S1x32x2048.size a := by
  show i ∈ ((View.whole main_v0).slice (win0_3.rect t)).set ↔ _
  rw [View.set_slice_whole, Rect.mem_set_unit]
  exact Iff.rfl

/-- THE OUTPUT ARRAY after the run is the table of all descriptors: index `(b, k, d)` lies in the block of point `b`. -/
theorem final (c : Dev nD) : (dats m 0 c).arrAt 3 cfg0.N = tables (V m c main_arg0) (V m c main_arg1) (V m c main_arg2) :=
  (dats m 0 c).arrAt_eq_of_cover 3 _ (fun t _ => flushed_eq m c t) fun i => by
    have h0 : (i 0).val < 64 := (i 0).isLt
    have h1 : (i 1).val < 32 := (i 1).isLt
    have h2 : (i 2).val < 2048 := (i 2).isLt
    have ht : (i 0).val < cfg0.N := by rw [show cfg0.N = 64 from N_0]; exact h0
    refine ⟨⟨(i 0).val, ht⟩, flush0_3 _, ?_⟩
    rw [mem_blk]
    obtain ⟨-, -, -, -, -, -, -, o0, o1, o2⟩ := block_indices ⟨(i 0).val, ht⟩
    have e0 : win0_3.index ⟨(i 0).val, ht⟩ (0 : Fin 3) = (i 0).val := o0
    intro a
    match a with
    | ⟨0, _⟩ => show win0_3.index _ (0 : Fin 3) * 1 ≤ (i 0).val ∧ (i 0).val < win0_3.index _ (0 : Fin 3) * 1 + 1; rw [e0]; constructor <;> omega
    | ⟨1, _⟩ => show win0_3.index _ (1 : Fin 3) * 32 ≤ (i 1).val ∧ (i 1).val < win0_3.index _ (1 : Fin 3) * 32 + 32; rw [o1]; constructor <;> omega
    | ⟨2, _⟩ => show win0_3.index _ (2 : Fin 3) * 2048 ≤ (i 2).val ∧ (i 2).val < win0_3.index _ (2 : Fin 3) * 2048 + 2048; rw [o2]; constructor <;> omega

/-- The table of all descriptors flattened row by row is the result array. -/
theorem flatten_tables (A : S64x512x2048.Idx → EReal) (P Q : S32x2048.Idx → EReal) :
    shapeCast S64x65536 (tables A P Q) shapeCasts_S64x32x2048_S64x65536 = result A P Q := funext fun i => by
  obtain ⟨b, j, rfl⟩ : ∃ (b : Fin 64) (j : Fin 65536), i = ix2 b j := ⟨i 0, i 1, eq_ix2 i⟩
  refine (shapeCast_apply (tables A P Q) shapeCasts_S64x32x2048_S64x65536 (ix2 b j) (ix3 b (rowOf j) (colOf j)) ?_).trans rfl
  rw [Shape.rowMajor_val_three, Shape.rowMajor_val_two]
  show (b.val * 32 + j.val / 2048) * 2048 + j.val % 2048 = b.val * 65536 + j.val
  have := j.isLt
  omega

/-- After the run the result buffer holds the result array of the arguments. -/
theorem result_eq (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v1)
      = result (m ((c : Thread nD τ).loc main_arg0)) (m ((c : Thread nD τ).loc main_arg1)) (m ((c : Thread nD τ).loc main_arg2)) := by
  rw [(h c).2 main_v1 (Pipeline.mem_restRefs_of main_v1 rfl (fun w => by fin_cases w <;> decide))]
  unfold Pipeline.afterTail₀
  show StableHlo.after hostOps1 _ (Proc.devRef .tc main_v1) = _
  after_results
  have hw : Pipeline.withArrays spec0 c (V0 m c) (fun w => (dats m 0 c).arrAt w cfg0.N) (Proc.devRef .tc main_v0)
      = tables (V m c main_arg0) (V m c main_arg1) (V m c main_arg2) :=
    (Pipeline.withArrays_arr spec0 launch0.win.arr_inj c _ _ 3).trans (final m c)
  show shapeCast S64x65536 (Pipeline.withArrays spec0 c (V0 m c) (fun w => (dats m 0 c).arrAt w cfg0.N) (Proc.devRef .tc main_v0))
      shapeCasts_S64x32x2048_S64x65536 = _
  rw [hw, flatten_tables]
  rfl

/-- THE KERNEL'S RUN: every weakly fair execution terminates with the result buffer at the result array of the arguments
    and the arguments unchanged. -/
theorem run : θ_run defs (onTc (τ := τ) (main (F := Ideal))) ⟨m, fun _ => 0, ρ⟩ fun r => ∀ c : Dev nD,
      r.2.mem ((c : Thread nD τ).loc main_v1)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨result_eq m r h c,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.NetVlad.KernelRun

end
-- ==== Proof.Reference.lean ====
/-
  The reference program, stage by stage, is the descriptor of each batch element.

  The reference normalizes every frame of the whole [64, 512, 2048] array, takes the softmax of the frames' products with
  the projection rows, forms the residual tables of all batch elements at once, normalizes their rows, flattens each
  table to a row of 65536 entries and normalizes that row.  Read at coordinates, every stage at batch element `b` is the
  matching entry of the descriptor's definition for the frame matrix `(m, d) ↦ X (b, m, d)`.  Three small facts join the
  two spellings: a sum started from the zero word is the plain sum; a running maximum started from a value is at least
  that value, so taking the maximum with it once more changes nothing; and a sum over the flat position `j` of a
  function of `(j / 2048, j % 2048)` is the double sum over rows and columns.
-/
import proofs.«168646_j55886114455954_1_alg».proof.Proof.Gen.ReferenceIdeal.Read
import proofs.«168646_j55886114455954_1_alg».proof.Proof.NetVlad
import Idealize.ShloMosaic.Lib.ValueIdx

noncomputable section

namespace Cert.NetVlad.Ref

open Idealize.ShloMosaic Idealize.ShloMosaic.ValueIdx Cert.ReferenceIdeal Cert.ReferenceIdeal.Gen Cert.ReferenceIdeal.Read Cert.NetVlad

/-- The frame array and the two tables, as the reference's stages take them. -/
abbrev Frames := (⟨S64x512x2048, .f32⟩ : BufTy).Contents (Elt Ideal)
abbrev Table := (⟨S32x2048, .f32⟩ : BufTy).Contents (Elt Ideal)

/-- Batch element `b`'s frame matrix. -/
def slab (X : Frames) (b : Fin 64) : Fin 512 → Fin 2048 → EReal := fun m d => X (ix3 b m d)
/-- A [32, 2048] table by coordinates. -/
def tableOf (T : Table) : Fin 32 → Fin 2048 → EReal := fun k d => T (ix2 k d)

/-! ## Where each stage reads its operand, at coordinates -/

theorem i_c0v1 (b : Fin 64) (m : Fin 512) (d : Fin 2048) : idx_main_call0_v1 (ix2 b m) d = ix3 b m d := funext fun a => Fin.ext (by match a with | ⟨0, _⟩ => rfl | ⟨1, _⟩ => rfl | ⟨2, _⟩ => rfl)
theorem i_c0v2 (b : Fin 64) (m : Fin 512) (u : Fin 1) : idx_main_call0_v2 (ix3 b m u) = ix2 b m := funext fun a => Fin.ext (by match a with | ⟨0, _⟩ => rfl | ⟨1, _⟩ => rfl)
theorem i_v3 (b : Fin 64) (m : Fin 512) (d : Fin 2048) : idx_main_v3 (ix3 b m d) = ix3 b m (0 : Fin 1) := funext fun a => Fin.ext (by match a with | ⟨0, _⟩ => rfl | ⟨1, _⟩ => rfl | ⟨2, _⟩ => rfl)
theorem il_v5 (b : Fin 64) (m : Fin 512) (k : Fin 32) (d : Fin 2048) : lidx_main_v5 (ix3 b m k) d = ix3 b m d := funext fun a => Fin.ext (by match a with | ⟨0, _⟩ => rfl | ⟨1, _⟩ => rfl | ⟨2, _⟩ => rfl)
theorem ir_v5 (b : Fin 64) (m : Fin 512) (k : Fin 32) (d : Fin 2048) : ridx_main_v5 (ix3 b m k) d = ix2 k d := funext fun a => Fin.ext (by match a with | ⟨0, _⟩ => rfl | ⟨1, _⟩ => rfl)
theorem i_v9 (b : Fin 64) (m : Fin 512) (u : Fin 1) : idx_main_v9 (ix3 b m u) = ix2 b m := funext fun a => Fin.ext (by match a with | ⟨0, _⟩ => rfl | ⟨1, _⟩ => rfl)
theorem i_v10 (b : Fin 64) (m : Fin 512) (k : Fin 32) : idx_main_v10 (ix3 b m k) = ix3 b m (0 : Fin 1) := funext fun a => Fin.ext (by match a with | ⟨0, _⟩ => rfl | ⟨1, _⟩ => rfl | ⟨2, _⟩ => rfl)
theorem i_v13 (b : Fin 64) (m : Fin 512) (k : Fin 32) : idx_main_v13 (ix2 b m) k = ix3 b m k := funext fun a => Fin.ext (by match a with | ⟨0, _⟩ => rfl | ⟨1, _⟩ => rfl | ⟨2, _⟩ => rfl)
theorem i_v14 (b : Fin 64) (m : Fin 512) (u : Fin 1) : idx_main_v14 (ix3 b m u) = ix2 b m := funext fun a => Fin.ext (by match a with | ⟨0, _⟩ => rfl | ⟨1, _⟩ => rfl)
theorem i_v15 (b : Fin 64) (m : Fin 512) (k : Fin 32) : idx_main_v15 (ix3 b m k) = ix3 b m (0 : Fin 1) := funext fun a => Fin.ext (by match a with | ⟨0, _⟩ => rfl | ⟨1, _⟩ => rfl | ⟨2, _⟩ => rfl)
theorem il_v17 (b : Fin 64) (k : Fin 32) (d : Fin 2048) (m : Fin 512) : lidx_main_v17 (ix3 b k d) m = ix3 b m k := funext fun a => Fin.ext (by match a with | ⟨0, _⟩ => rfl | ⟨1, _⟩ => rfl | ⟨2, _⟩ => rfl)
theorem ir_v17 (b : Fin 64) (k : Fin 32) (d : Fin 2048) (m : Fin 512) : ridx_main_v17 (ix3 b k d) m = ix3 b m d := funext fun a => Fin.ext (by match a with | ⟨0, _⟩ => rfl | ⟨1, _⟩ => rfl | ⟨2, _⟩ => rfl)
theorem i_v18 (b : Fin 64) (k : Fin 32) (m : Fin 512) : idx_main_v18 (ix2 b k) m = ix3 b m k := funext fun a => Fin.ext (by match a with | ⟨0, _⟩ => rfl | ⟨1, _⟩ => rfl | ⟨2, _⟩ => rfl)
theorem i_v19 (b : Fin 64) (k : Fin 32) (u : Fin 1) : idx_main_v19 (ix3 b k u) = ix2 b k := funext fun a => Fin.ext (by match a with | ⟨0, _⟩ => rfl | ⟨1, _⟩ => rfl)
theorem i_v20 (u : Fin 1) (k : Fin 32) (d : Fin 2048) : idx_main_v20 (ix3 u k d) = ix2 k d := funext fun a => Fin.ext (by match a with | ⟨0, _⟩ => rfl | ⟨1, _⟩ => rfl)
theorem i_v21 (b : Fin 64) (k : Fin 32) (d : Fin 2048) : idx_main_v21 (ix3 b k d) = ix3 b k (0 : Fin 1) := funext fun a => Fin.ext (by match a with | ⟨0, _⟩ => rfl | ⟨1, _⟩ => rfl | ⟨2, _⟩ => rfl)
theorem i_v22 (b : Fin 64) (k : Fin 32) (d : Fin 2048) : idx_main_v22 (ix3 b k d) = ix3 (0 : Fin 1) k d := funext fun a => Fin.ext (by match a with | ⟨0, _⟩ => rfl | ⟨1, _⟩ => rfl | ⟨2, _⟩ => rfl)
theorem i_c1v1 (b : Fin 64) (k : Fin 32) (d : Fin 2048) : idx_main_call1_v1 (ix2 b k) d = ix3 b k d := funext fun a => Fin.ext (by match a with | ⟨0, _⟩ => rfl | ⟨1, _⟩ => rfl | ⟨2, _⟩ => rfl)
theorem i_c1v2 (b : Fin 64) (k : Fin 32) (u : Fin 1) : idx_main_call1_v2 (ix3 b k u) = ix2 b k := funext fun a => Fin.ext (by match a with | ⟨0, _⟩ => rfl | ⟨1, _⟩ => rfl)
theorem i_v28 (b : Fin 64) (k : Fin 32) (d : Fin 2048) : idx_main_v28 (ix3 b k d) = ix3 b k (0 : Fin 1) := funext fun a => Fin.ext (by match a with | ⟨0, _⟩ => rfl | ⟨1, _⟩ => rfl | ⟨2, _⟩ => rfl)
theorem i_c2v1 (b : Fin 64) (j : Fin 65536) : idx_main_call2_v1 (ix1 b) j = ix2 b j := funext fun a => Fin.ext (by match a with | ⟨0, _⟩ => rfl | ⟨1, _⟩ => rfl)
theorem i_c2v2 (b : Fin 64) (u : Fin 1) : idx_main_call2_v2 (ix2 b u) = ix1 b := funext fun a => Fin.ext (by match a with | ⟨0, _⟩ => rfl)
theorem i_v34 (b : Fin 64) (j : Fin 65536) : idx_main_v34 (ix2 b j) = ix2 b (0 : Fin 1) := funext fun a => Fin.ext (by match a with | ⟨0, _⟩ => rfl | ⟨1, _⟩ => rfl)

/-- Flat position `j` of row `b` of the flattened array is entry `(b, j / 2048, j % 2048)` of the table array. -/
theorem i_v30 (b : Fin 64) (j : Fin 65536) : idx_main_v30 (ix2 b j) = ix3 b (rowOf j) (colOf j) := funext fun a => Fin.ext (by
  have hb := b.isLt
  have hj := j.isLt
  match a with
  | ⟨0, _⟩ => show (b.val * 65536 + j.val) / 65536 = b.val; omega
  | ⟨1, _⟩ => show (b.val * 65536 + j.val) / 2048 % 32 = j.val / 2048; omega
  | ⟨2, _⟩ => show (b.val * 65536 + j.val) % 2048 = j.val % 2048; omega)

/-- A sum over the flat positions of a function of the row and the column is the double sum over rows and columns. -/
theorem sum_flat (f : Fin 32 → Fin 2048 → EReal) : ∑ j : Fin 65536, f (rowOf j) (colOf j) = ∑ k : Fin 32, ∑ d : Fin 2048, f k d := by
  rw [← Fintype.sum_prod_type']
  exact Fintype.sum_equiv (finProdFinEquiv (m := 32) (n := 2048)).symm
    (fun j : Fin 65536 => f (rowOf j) (colOf j)) (fun p => f p.1 p.2) (fun j => rfl)

variable (X : Frames) (W C : Table)

/-! ## The stages -/

theorem frameNorm_apply (b : Fin 64) (m : Fin 512) (u : Fin 1) : val_main_v2 (F := Ideal) X (ix3 b m u) = frameNorm (slab X b) m := by
  rw [val_main_v2_apply, val_main_v0_apply, val_main_v1_apply, val_main_cst_apply, val_main_call0_v2_apply, i_c0v2,
    val_main_call0_v1_apply, val_main_call0_cst_apply]
  simp only [i_c0v1, val_main_call0_v0_apply, Ideal.mulf_def, Ideal.maximumf_def, Ideal.hostUnary_sqrt_def, Ideal.ofBits_def,
    Ideal.ofBits_zero_f32, zero_add]
  rfl

theorem unitFrame_apply (b : Fin 64) (m : Fin 512) (d : Fin 2048) : val_main_v4 (F := Ideal) X (ix3 b m d) = unitFrame (slab X b) m d := by
  rw [val_main_v4_apply, val_main_v3_apply, i_v3, frameNorm_apply]
  rfl

theorem logit_apply (b : Fin 64) (m : Fin 512) (k : Fin 32) :
    val_main_v5 (F := Ideal) X W (ix3 b m k) = logit (slab X b) (tableOf W) m k := by
  rw [val_main_v5_apply]
  unfold logit
  refine Finset.sum_congr rfl fun d _ => ?_
  rw [il_v5, ir_v5, unitFrame_apply]
  rfl

/-- The reduced index `(b, m)` with the cluster coordinate put back is `(b, m, k)`. -/
theorem lift_v6 (h : S64x512x32.Reduces [2] S64x512) (b : Fin 64) (m : Fin 512) (k : Fin (S64x512x32.size 2)) :
    h.lift (ix2 b m) k = ix3 b m (⟨k.val, k.isLt⟩ : Fin 32) := funext fun a => Fin.ext (by match a with | ⟨0, _⟩ => rfl | ⟨1, _⟩ => rfl | ⟨2, _⟩ => rfl)

theorem topLogit_apply (b : Fin 64) (m : Fin 512) : val_main_v8 (F := Ideal) X W (ix2 b m) = topLogit (slab X b) (tableOf W) m := by
  have h6 : val_main_v6 (F := Ideal) X W (ix2 b m) = topLogit (slab X b) (tableOf W) m := by
    unfold val_main_v6
    rw [Host.reduce_eq_fold_single FloatOps.maximumf _ _ reducesTo_S64x512x32_S64x512_d2 (by decide) h_S_]
    unfold topLogit
    refine congrArg (fun f => Finset.fold max maxStart f (Finset.univ : Finset (Fin 32))) (funext fun k => ?_)
    show val_main_v5 (F := Ideal) X W (Shape.Reduces.lift _ (ix2 b m) k) = _
    rw [lift_v6, logit_apply]
    rfl
  rw [val_main_v8_apply, h6]
  exact max_eq_right ((Finset.le_fold_max _).mpr (Or.inl le_rfl))

theorem expo_apply (b : Fin 64) (m : Fin 512) (k : Fin 32) :
    val_main_v12 (F := Ideal) X W (ix3 b m k) = expo (slab X b) (tableOf W) m k := by
  rw [val_main_v12_apply, val_main_v11_apply, val_main_v10_apply, i_v10, val_main_v9_apply, i_v9, logit_apply, topLogit_apply]
  rfl

theorem expoSum_apply (b : Fin 64) (m : Fin 512) : val_main_v13 (F := Ideal) X W (ix2 b m) = expoSum (slab X b) (tableOf W) m := by
  rw [val_main_v13_apply]
  simp only [val_main_cst_2_apply, Ideal.ofBits_def, Ideal.ofBits_zero_f32, zero_add]
  unfold expoSum
  refine Finset.sum_congr rfl fun k _ => ?_
  rw [i_v13, expo_apply]

theorem assign_apply (b : Fin 64) (m : Fin 512) (k : Fin 32) :
    val_main_v16 (F := Ideal) X W (ix3 b m k) = assign (slab X b) (tableOf W) m k := by
  rw [val_main_v16_apply, val_main_v15_apply, i_v15, val_main_v14_apply, i_v14, expo_apply, expoSum_apply]
  rfl

theorem gathered_apply (b : Fin 64) (k : Fin 32) (d : Fin 2048) :
    val_main_v17 (F := Ideal) X W (ix3 b k d) = gathered (slab X b) (tableOf W) k d := by
  rw [val_main_v17_apply]
  unfold gathered
  refine Finset.sum_congr rfl fun m _ => ?_
  rw [il_v17, ir_v17, assign_apply, unitFrame_apply]

theorem mass_apply (b : Fin 64) (k : Fin 32) : val_main_v18 (F := Ideal) X W (ix2 b k) = mass (slab X b) (tableOf W) k := by
  rw [val_main_v18_apply]
  simp only [val_main_cst_3_apply, Ideal.ofBits_def, Ideal.ofBits_zero_f32, zero_add]
  unfold mass
  refine Finset.sum_congr rfl fun m _ => ?_
  rw [i_v18, assign_apply]

theorem resid_apply (b : Fin 64) (k : Fin 32) (d : Fin 2048) :
    val_main_v24 (F := Ideal) X W C (ix3 b k d) = resid (slab X b) (tableOf W) (tableOf C) k d := by
  rw [val_main_v24_apply, val_main_v23_apply, val_main_v21_apply, i_v21, val_main_v19_apply, i_v19, val_main_v22_apply, i_v22,
    val_main_v20_apply, i_v20, gathered_apply, mass_apply]
  rfl

theorem residNorm_apply (b : Fin 64) (k : Fin 32) (u : Fin 1) :
    val_main_v27 (F := Ideal) X W C (ix3 b k u) = residNorm (slab X b) (tableOf W) (tableOf C) k := by
  rw [val_main_v27_apply, val_main_v25_apply, val_main_v26_apply, val_main_cst_4_apply, val_main_call1_v2_apply, i_c1v2,
    val_main_call1_v1_apply, val_main_call1_cst_apply]
  simp only [i_c1v1, val_main_call1_v0_apply, resid_apply, Ideal.mulf_def, Ideal.maximumf_def, Ideal.hostUnary_sqrt_def,
    Ideal.ofBits_def, Ideal.ofBits_zero_f32, zero_add]
  rfl

theorem intra_apply (b : Fin 64) (k : Fin 32) (d : Fin 2048) :
    val_main_v29 (F := Ideal) X W C (ix3 b k d) = intra (slab X b) (tableOf W) (tableOf C) k d := by
  rw [val_main_v29_apply, val_main_v28_apply, i_v28, resid_apply, residNorm_apply]
  rfl

theorem flat_apply (b : Fin 64) (j : Fin 65536) :
    val_main_v30 (F := Ideal) X W C (ix2 b j) = intra (slab X b) (tableOf W) (tableOf C) (rowOf j) (colOf j) := by
  rw [val_main_v30_apply, i_v30, intra_apply]

theorem tableNorm_apply (b : Fin 64) (u : Fin 1) :
    val_main_v33 (F := Ideal) X W C (ix2 b u) = tableNorm (slab X b) (tableOf W) (tableOf C) := by
  rw [val_main_v33_apply, val_main_v31_apply, val_main_v32_apply, val_main_cst_5_apply, val_main_call2_v2_apply, i_c2v2,
    val_main_call2_v1_apply, val_main_call2_cst_apply]
  simp only [i_c2v1, val_main_call2_v0_apply, flat_apply, Ideal.mulf_def, Ideal.maximumf_def, Ideal.hostUnary_sqrt_def,
    Ideal.ofBits_def, Ideal.ofBits_zero_f32, zero_add]
  refine congrArg (fun t => max (Ideal.sqrt t) floorEps) ?_
  exact sum_flat fun k d => intra (slab X b) (tableOf W) (tableOf C) k d * intra (slab X b) (tableOf W) (tableOf C) k d

/-- THE REFERENCE'S RESULT at row `b`, flat position `j`: the descriptor of batch element `b` at `(j / 2048, j % 2048)`. -/
theorem result_apply (b : Fin 64) (j : Fin 65536) :
    val_main_v35 (F := Ideal) X W C (ix2 b j) = descriptor (slab X b) (tableOf W) (tableOf C) (rowOf j) (colOf j) := by
  rw [val_main_v35_apply, val_main_v34_apply, i_v34, flat_apply, tableNorm_apply]
  rfl

/-- The reference's result array is the result array of the descriptor's definition. -/
theorem reference_eq : val_main_v35 (F := Ideal) X W C = result X W C := funext fun i => by
  obtain ⟨b, j, rfl⟩ : ∃ (b : Fin 64) (j : Fin 65536), i = ix2 b j := ⟨i 0, i 1, eq_ix2 i⟩
  rw [result_apply]
  rfl

end Cert.NetVlad.Ref

end
-- ==== Proof.lean ====
/-
  The five claims for the NetVLAD kernel against its reference.

  Both programs compute, for every batch element, the same descriptor (proof/Proof/NetVlad.lean): frames scaled to unit
  length, a softmax of their products with the projection rows, the assignment-weighted residuals against the cluster
  centres, each residual row scaled to unit length and the whole table once more, flattened to one row.  Over the
  extended reals the two differ only in spelling: the kernel's sums start from nothing where the reference's start from
  zero; the reference takes the maximum with minus infinity once more after a running maximum that already started
  there; the kernel sums the table's squares row by row and then over the rows where the reference sums over the flat
  positions; and the kernel multiplies by the reciprocal of the last norm where the reference divides by it — the same
  number, because that norm is at least the positive floor and so is not zero.  No finiteness of the inputs is used.

  The kernel's result is read off its run block by block (Proof/Body.lean: one grid point's block is one batch
  element's descriptor; Proof/KernelRun.lean: the 64 blocks tile the array, which the last line flattens), the
  reference's off its run stage by stage (Proof/Reference.lean).  The idealization rewrote nothing, so that claim is
  trivial, and the three frames are the programs' runs with the results forgotten.
-/
import proofs.«168646_j55886114455954_1_alg».proof.Defs
import proofs.«168646_j55886114455954_1_alg».proof.Proof.Gen.Kernel
import proofs.«168646_j55886114455954_1_alg».proof.Proof.Gen.Kernel.Skeleton
import proofs.«168646_j55886114455954_1_alg».proof.Proof.Gen.Kernel.Launch
import proofs.«168646_j55886114455954_1_alg».proof.Proof.Gen.Kernel.Points
import proofs.«168646_j55886114455954_1_alg».proof.Proof.Gen.Kernel.Frame
import proofs.«168646_j55886114455954_1_alg».proof.Proof.Gen.KernelIdeal
import proofs.«168646_j55886114455954_1_alg».proof.Proof.Gen.KernelIdeal.Skeleton
import proofs.«168646_j55886114455954_1_alg».proof.Proof.Gen.KernelIdeal.Launch
import proofs.«168646_j55886114455954_1_alg».proof.Proof.Gen.KernelIdeal.Points
import proofs.«168646_j55886114455954_1_alg».proof.Proof.Gen.KernelIdeal.Frame
import proofs.«168646_j55886114455954_1_alg».proof.Proof.Gen.ReferenceIdeal
import proofs.«168646_j55886114455954_1_alg».proof.Proof.Gen.Pre_finite_inputs
import proofs.«168646_j55886114455954_1_alg».proof.Proof.Gen.ReferenceIdeal.Run
import proofs.«168646_j55886114455954_1_alg».proof.Proof.Gen.ReferenceIdeal.Read
import proofs.«168646_j55886114455954_1_alg».proof.Proof.KernelRun
import proofs.«168646_j55886114455954_1_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array of the descriptor's definition. -/
theorem algebraic : Cert.algebraic_KernelIdeal_ReferenceIdeal := by
  intro m ρ m' ρ' _ hagree
  refine ⟨_, Cert.NetVlad.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.NetVlad.Ref.reference_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
